-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S2x200000 : Shape := ⟨2, ![2, 200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x3200000 32) (main_arg6 : IVec S2x200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S2x200000 : Shape := ⟨2, ![2, 200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S2000x128 : Shape := ⟨2, ![2000, 128]⟩
abbrev S2000x64 : Shape := ⟨2, ![2000, 64]⟩
abbrev S3300000x64 : Shape := ⟨2, ![3300000, 64]⟩
abbrev S1x64 : Shape := ⟨2, ![1, 64]⟩
abbrev S100000x32 : Shape := ⟨2, ![100000, 32]⟩
abbrev S2000x32 : Shape := ⟨2, ![2000, 32]⟩
abbrev S3300000x32 : Shape := ⟨2, ![3300000, 32]⟩
abbrev S1x32 : Shape := ⟨2, ![1, 32]⟩
abbrev S1x200000 : Shape := ⟨2, ![1, 200000]⟩
abbrev S200000 : Shape := ⟨1, ![200000]⟩
abbrev S200000x1 : Shape := ⟨2, ![200000, 1]⟩
abbrev S200000x32 : Shape := ⟨2, ![200000, 32]⟩
abbrev S10000x32 : Shape := ⟨2, ![10000, 32]⟩
abbrev S10000x1 : Shape := ⟨2, ![10000, 1]⟩
abbrev S10000 : Shape := ⟨1, ![10000]⟩

abbrev nBuf : Space → Nat
  | .hbm => 109
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S2x200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x64, .f32⟩
  | .hbm, ⟨48, _⟩ => ⟨S3300000x1, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x64, .f32⟩
  | .hbm, ⟨59, _⟩ => ⟨S3300000x64, .f32⟩
  | .hbm, ⟨60, _⟩ => ⟨S_, .f32⟩
  | .hbm, ⟨61, _⟩ => ⟨S100000x64, .f32⟩
  | .hbm, ⟨62, _⟩ => ⟨S3300000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x32, .f32⟩
  | .hbm, ⟨67, _⟩ => ⟨S3300000x1, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x32, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S1x200000, .i32⟩
  | .hbm, ⟨86, _⟩ => ⟨S200000, .i32⟩
  | .hbm, ⟨87, _⟩ => ⟨S_, .i32⟩
  | .hbm, ⟨88, _⟩ => ⟨S200000, .i32⟩
  | .hbm, ⟨89, _⟩ => ⟨S200000, .i1⟩
  | .hbm, ⟨90, _⟩ => ⟨S_, .i32⟩
  | .hbm, ⟨91, _⟩ => ⟨S200000, .i32⟩
  | .hbm, ⟨92, _⟩ => ⟨S200000, .i32⟩
  | .hbm, ⟨93, _⟩ => ⟨S200000, .i32⟩
  | .hbm, ⟨94, _⟩ => ⟨S200000x1, .i32⟩
  | .hbm, ⟨95, _⟩ => ⟨S200000x32, .f32⟩
  | .hbm, ⟨96, _⟩ => ⟨S1x200000, .i32⟩
  | .hbm, ⟨97, _⟩ => ⟨S200000, .i32⟩
  | .hbm, ⟨98, _⟩ => ⟨S_, .i32⟩
  | .hbm, ⟨99, _⟩ => ⟨S200000, .i32⟩
  | .hbm, ⟨100, _⟩ => ⟨S200000, .i1⟩
  | .hbm, ⟨101, _⟩ => ⟨S_, .i32⟩
  | .hbm, ⟨102, _⟩ => ⟨S200000, .i32⟩
  | .hbm, ⟨103, _⟩ => ⟨S200000, .i32⟩
  | .hbm, ⟨104, _⟩ => ⟨S200000, .i32⟩
  | .hbm, ⟨105, _⟩ => ⟨S200000x1, .i32⟩
  | .hbm, ⟨106, _⟩ => ⟨S200000x32, .f32⟩
  | .hbm, ⟨107, _⟩ => ⟨S200000x1, .f32⟩
  | .hbm, ⟨108, _⟩ => ⟨S200000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S1x32, .f32⟩
  | .local _ .vmem, ⟨18, _⟩ => ⟨S2000x32, .f32⟩
  | .local _ .vmem, ⟨19, _⟩ => ⟨S2000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  reduces_S10000x32_S10000 : S10000x32.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x128_S128x64_S2000x64_1_0_0_1_n_n_wf : DotDims.WF S2000x128 S128x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x32_S2000x32_1_0_0_1_n_n_wf : DotDims.WF S2000x64 S64x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  gather_S100000x32_S200000x1_S200000x32_1_0_n_n_0_1_132_wf : GatherDims.WF S100000x32 S200000x1 S200000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S200000x32.size a
  hwx4_0 : ∀ i : grid4.Coords, EltTy.bits .f32 = 32 ∨ (Rect.block (s := S200000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S200000x32.size a
  hwx4_1 : ∀ i : grid4.Coords, EltTy.bits .f32 = 32 ∨ (Rect.block (s := S200000x32) S10000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S200000x1.size a
  hwx4_2 : ∀ i : grid4.Coords, EltTy.bits .f32 = 32 ∨ (Rect.block (s := S200000x1) S10000x1.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def gather_S100000x32_S200000x1_S200000x32_1_0_n_n_0_1_132 : GatherDims S100000x32 S200000x1 S200000x32 where
  offsetDims := [1]
  collapsedSliceDims := [0]
  operandBatchingDims := []
  startIndicesBatchingDims := []
  startIndexMap := [0]
  indexVectorDim := 1
  sliceSizes := ![1, 32]
  wf := gather_S100000x32_S200000x1_S200000x32_1_0_n_n_0_1_132_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S2x200000 : Shape := ⟨2, ![2, 200000]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S1x200000 : Shape := ⟨2, ![1, 200000]⟩
abbrev S200000 : Shape := ⟨1, ![200000]⟩
abbrev S200000x1 : Shape := ⟨2, ![200000, 1]⟩
abbrev S200000x32 : Shape := ⟨2, ![200000, 32]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x32, .f32⟩
  | 4 => ⟨S32, .f32⟩
  | 5 => ⟨S2x3200000, .i32⟩
  | 6 => ⟨S2x200000, .i32⟩
  | 7 => ⟨S100000x64, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S3300000x1, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x64, .f32⟩
  | 59 => ⟨S3300000x64, .f32⟩
  | 60 => ⟨S_, .f32⟩
  | 61 => ⟨S100000x64, .f32⟩
  | 62 => ⟨S3300000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x32, .f32⟩
  | 71 => ⟨S100000, .i32⟩
  | 72 => ⟨S1x3200000, .i32⟩
  | 73 => ⟨S3200000, .i32⟩
  | 74 => ⟨S3300000, .i32⟩
  | 75 => ⟨S1x3200000, .i32⟩
  | 76 => ⟨S3200000, .i32⟩
  | 77 => ⟨S3300000, .i32⟩
  | 78 => ⟨S_, .f32⟩
  | 79 => ⟨S3300000, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S3300000x1, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x32, .f32⟩
  | 121 => ⟨S3300000x32, .f32⟩
  | 122 => ⟨S3300000x32, .f32⟩
  | 123 => ⟨S_, .f32⟩
  | 124 => ⟨S100000x32, .f32⟩
  | 125 => ⟨S3300000x1, .i32⟩
  | 126 => ⟨S100000x32, .f32⟩
  | 127 => ⟨S1x32, .f32⟩
  | _ => ⟨S100000x128, .f32⟩

abbrev hbmTy0_1 (i : Nat) : BufTy := match i % 128 with
  | 0 => ⟨S100000x32, .f32⟩
  | 1 => ⟨S100000x32, .f32⟩
  | 2 => ⟨S1x200000, .i32⟩
  | 3 => ⟨S200000, .i32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x32, .f32⟩
  | 13 => ⟨S1x200000, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x32, .f32⟩
  | 24 => ⟨S200000x32, .f32⟩
  | 25 => ⟨S_, .f32⟩
  | 26 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_20 : Ref sig .tc := ⟨.hbm, 132, rfl⟩
abbrev main_v97 : Ref sig .tc := ⟨.hbm, 133, rfl⟩
abbrev main_v98 : Ref sig .tc := ⟨.hbm, 134, rfl⟩
abbrev main_c_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x32_S200000_d1 : S200000x32.ReducesTo [1] S200000
  h_S_ : 0 < S_.numel
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  gather_S100000x32_S200000x1_S200000x32_1_0_n_n_0_1_132_wf : GatherDims.WF S100000x32 S200000x1 S200000x32 [1] [0] [] [0] [] 1 ![1, 32]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def gather_S100000x32_S200000x1_S200000x32_1_0_n_n_0_1_132 : GatherDims S100000x32 S200000x1 S200000x32 where
  offsetDims := [1]
  collapsedSliceDims := [0]
  operandBatchingDims := []
  startIndicesBatchingDims := []
  startIndexMap := [0]
  indexVectorDim := 1
  sliceSizes := ![1, 32]
  wf := gather_S100000x32_S200000x1_S200000x32_1_0_n_n_0_1_132_wf

class Facts : Prop extends Facts₀ where

variable [Facts]
-- ==== Proof.Spec.lean ====
/-
  The network as one function of its seven arguments, in named stages.

  A two-layer graph convolution followed by a dot-product link decoder:
    * every node gets a self loop, so the edge list has 3200000 + 100000 entries: `sources` and `targets`;
    * an index word is wrapped the way array indexing wraps it (a negative word gets the extent added): `wrapNode`, `wrapPair`;
    * a node's degree counts the edges that land on it (ones scattered onto the targets), and its weight is
      degree^(-1/2) where the degree is positive and 0 elsewhere: `degreeWeight`;
    * an edge's coefficient is the product of the weights of its two ends: `edgeCoeff`;
    * one aggregation sends every node the coefficient-scaled feature rows of its in-neighbours, added up
      (a row gather by source, a scale, a scatter-add by target): `aggregate64`, `aggregate32`;
    * layer 1 is relu (aggregate (x · W1) + b1), layer 2 is aggregate (z1 · W2) + b2: `layer1`, `layer2`;
    * a labelled pair's score is the sum over the 32 lanes of the product of its two nodes' rows: `score`.
  Every stage is spelt with the host's operations, in the order the reference applies them, so the reference's composed
  term is `score` by unfolding the names.
-/
import proofs.«110234_j1219770712387_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- The source node of every edge: row 0 of the edge list, then one self loop per node. -/
def sources (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target node of every edge: row 1 of the edge list, then one self loop per node. -/
def targets (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An edge end as a gather index: a negative word gets the number of nodes added; laid out as a column. -/
def wrapNode (r : (⟨S3300000, .i32⟩ : BufTy).Contents (Elt F)) : (⟨S3300000x1, .i32⟩ : BufTy).Contents (Elt F) :=
  broadcastInDim S3300000x1 ![0] bcast_S3300000_S3300000x1_0 (select (cmpi .slt r (broadcastInDim S3300000 ![] bcast_S_S3300000 (constantI S_ 32 0#32))) (addi r (broadcastInDim S3300000 ![] bcast_S_S3300000 (constantI S_ 32 100000#32))) r)

/-- Each node's degree: ones scattered onto the edges' targets and added. -/
def degree (t : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 t) (broadcastInDim S3300000 ![] bcast_S_S3300000 (constant S_ .f32 0x3F800000#32))

/-- Each node's weight: degree^(-1/2) where the degree is positive, 0 elsewhere. -/
def degreeWeight (t : (⟨S3300000, .i32⟩ : BufTy).Contents (Elt F)) : (⟨S100000, .f32⟩ : BufTy).Contents (Elt F) :=
  select (cmpf (F := F) .ogt (degree t) (broadcastInDim S100000 ![] bcast_S_S100000 (constant S_ .f32 0x00000000#32))) (Host.rsqrt (degree t)) (broadcastInDim S100000 ![] bcast_S_S100000 (id (constant S_ .f32 0x00000000#32)))

/-- Each edge's coefficient: the weight of its source times the weight of its target. -/
def edgeCoeff (s t : (⟨S3300000, .i32⟩ : BufTy).Contents (Elt F)) : (⟨S3300000, .f32⟩ : BufTy).Contents (Elt F) :=
  mulf (Host.gather gather_S100000_S3300000x1_S3300000_n_0_n_n_0_1_1 (degreeWeight t) (wrapNode s)) (Host.gather gather_S100000_S3300000x1_S3300000_n_0_n_n_0_1_1 (degreeWeight t) (wrapNode t))

/-- One aggregation of 64-lane rows: each edge carries its source's row scaled by its coefficient to its target,
    where the arrivals are added. -/
def aggregate64 (s t : (⟨S3300000, .i32⟩ : BufTy).Contents (Elt F)) (w : (⟨S3300000, .f32⟩ : BufTy).Contents (Elt F))
    (h : (⟨S100000x64, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 t) (mulf (broadcastInDim S3300000x64 ![0, 1] bcast_S3300000x1_S3300000x64_0_1 (broadcastInDim S3300000x1 ![0] bcast_S3300000_S3300000x1_0 w)) (Host.gather gather_S100000x64_S3300000x1_S3300000x64_1_0_n_n_0_1_164 h (wrapNode s)))

/-- The same aggregation of 32-lane rows. -/
def aggregate32 (s t : (⟨S3300000, .i32⟩ : BufTy).Contents (Elt F)) (w : (⟨S3300000, .f32⟩ : BufTy).Contents (Elt F))
    (h : (⟨S100000x32, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 t) (mulf (broadcastInDim S3300000x32 ![0, 1] bcast_S3300000x1_S3300000x32_0_1 (broadcastInDim S3300000x1 ![0] bcast_S3300000_S3300000x1_0 w)) (Host.gather gather_S100000x32_S3300000x1_S3300000x32_1_0_n_n_0_1_132 h (wrapNode s)))

/-- Layer 1: relu (aggregate (x · W1) + b1). -/
def layer1 (x : (⟨S100000x128, .f32⟩ : BufTy).Contents (Elt F)) (W1 : (⟨S128x64, .f32⟩ : BufTy).Contents (Elt F))
    (b1 : (⟨S64, .f32⟩ : BufTy).Contents (Elt F)) (e : (⟨S2x3200000, .i32⟩ : BufTy).Contents (Elt F)) :
    (⟨S100000x64, .f32⟩ : BufTy).Contents (Elt F) :=
  maximumf (addf (aggregate64 (sources e) (targets e) (edgeCoeff (sources e) (targets e)) (Host.dotGeneral dot_S100000x128_S128x64_S100000x64_1_0_0_1_n_n none x W1)) (broadcastInDim S100000x64 ![0, 1] bcast_S1x64_S100000x64_0_1 (broadcastInDim S1x64 ![1] bcast_S64_S1x64_1 b1))) (broadcastInDim S100000x64 ![] bcast_S_S100000x64 (constant S_ .f32 0x00000000#32))

/-- Layer 2: aggregate (z · W2) + b2. -/
def layer2 (z : (⟨S100000x64, .f32⟩ : BufTy).Contents (Elt F)) (W2 : (⟨S64x32, .f32⟩ : BufTy).Contents (Elt F))
    (b2 : (⟨S32, .f32⟩ : BufTy).Contents (Elt F)) (e : (⟨S2x3200000, .i32⟩ : BufTy).Contents (Elt F)) :
    (⟨S100000x32, .f32⟩ : BufTy).Contents (Elt F) :=
  addf (aggregate32 (sources e) (targets e) (edgeCoeff (sources e) (targets e)) (Host.dotGeneral dot_S100000x64_S64x32_S100000x32_1_0_0_1_n_n none z W2)) (broadcastInDim S100000x32 ![0, 1] bcast_S1x32_S100000x32_0_1 (broadcastInDim S1x32 ![1] bcast_S32_S1x32_1 b2))

/-- A labelled pair's end as a gather index, wrapped the same way; laid out as a column. -/
def wrapPair (r : (⟨S200000, .i32⟩ : BufTy).Contents (Elt F)) : (⟨S200000x1, .i32⟩ : BufTy).Contents (Elt F) :=
  broadcastInDim S200000x1 ![0] bcast_S200000_S200000x1_0 (select (cmpi .slt r (broadcastInDim S200000 ![] bcast_S_S200000 (constantI S_ 32 0#32))) (addi r (broadcastInDim S200000 ![] bcast_S_S200000 (constantI S_ 32 100000#32))) r)

/-- The first node of every labelled pair. -/
def firsts (l : (⟨S2x200000, .i32⟩ : BufTy).Contents (Elt F)) : (⟨S200000, .i32⟩ : BufTy).Contents (Elt F) :=
  shapeCast _ (extractStridedSlice S1x200000 ![0, 0] l slices_S2x200000_S1x200000_0_0) shapeCasts_S1x200000_S200000

/-- The second node of every labelled pair. -/
def seconds (l : (⟨S2x200000, .i32⟩ : BufTy).Contents (Elt F)) : (⟨S200000, .i32⟩ : BufTy).Contents (Elt F) :=
  shapeCast _ (extractStridedSlice S1x200000 ![1, 0] l slices_S2x200000_S1x200000_1_0) shapeCasts_S1x200000_S200000

/-- The rows of the embedding at one end of every labelled pair. -/
def rowsAt (z : (⟨S100000x32, .f32⟩ : BufTy).Contents (Elt F)) (r : (⟨S200000, .i32⟩ : BufTy).Contents (Elt F)) :
    (⟨S200000x32, .f32⟩ : BufTy).Contents (Elt F) :=
  Host.gather gather_S100000x32_S200000x1_S200000x32_1_0_n_n_0_1_132 z (wrapPair r)

/-- The scores of all labelled pairs from an embedding: the lane sums of the products of the two ends' rows. -/
def scoresOf (z : (⟨S100000x32, .f32⟩ : BufTy).Contents (Elt F)) (l : (⟨S2x200000, .i32⟩ : BufTy).Contents (Elt F)) :
    (⟨S200000, .f32⟩ : BufTy).Contents (Elt F) :=
  Host.reduceAdd (mulf (rowsAt z (firsts l)) (rowsAt z (seconds l))) (constant S_ .f32 0x00000000#32) reducesTo_S200000x32_S200000_d1 h_S_

/-- The whole network. -/
def score (x : (⟨S100000x128, .f32⟩ : BufTy).Contents (Elt F)) (W1 : (⟨S128x64, .f32⟩ : BufTy).Contents (Elt F))
    (b1 : (⟨S64, .f32⟩ : BufTy).Contents (Elt F)) (W2 : (⟨S64x32, .f32⟩ : BufTy).Contents (Elt F))
    (b2 : (⟨S32, .f32⟩ : BufTy).Contents (Elt F)) (e : (⟨S2x3200000, .i32⟩ : BufTy).Contents (Elt F))
    (l : (⟨S2x200000, .i32⟩ : BufTy).Contents (Elt F)) : (⟨S200000, .f32⟩ : BufTy).Contents (Elt F) :=
  scoresOf (layer2 (layer1 x W1 b1 e) W2 b2 e) l

end Cert.Spec

end
-- ==== Proof.RefValue.lean ====
/-
  The reference's composed term is the network's function `Cert.Spec.score` of its arguments.

  The reference applies, in order, exactly the host operations the stages of `Cert.Spec` are spelt with (it builds the
  edge ends, the degrees and the coefficients once per layer; the two copies are the same term of the edge list), so
  unfolding the stages' names on one side and the run's name on the other leaves one and the same term.
-/
import proofs.«110234_j1219770712387_1_alg».proof.Proof.RefRun
import proofs.«110234_j1219770712387_1_alg».proof.Proof.Spec

noncomputable section

namespace Cert.ReferenceIdeal.RefValue

open Cert.ReferenceIdeal Cert.ReferenceIdeal.Gen Cert.ReferenceIdeal.ValueP Idealize.ShloMosaic Idealize.ShloMosaic.TcCoe Idealize.SL.Sem

variable {F : FTy → Type} [FloatOps F]

/-- What the reference's run leaves in its result is `score` of the seven argument arrays. -/
theorem result_eq (m : (ℓ : Loc nD τ sig) → Buf (Elt F) ℓ) (c : Dev nD) :
    res_main_v114 (F := F) m c
      = Cert.Spec.score (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold res_main_v114 Cert.Spec.score Cert.Spec.scoresOf Cert.Spec.rowsAt Cert.Spec.firsts Cert.Spec.seconds
    Cert.Spec.wrapPair Cert.Spec.layer2 Cert.Spec.layer1 Cert.Spec.aggregate32 Cert.Spec.aggregate64 Cert.Spec.edgeCoeff
    Cert.Spec.degreeWeight Cert.Spec.degree Cert.Spec.wrapNode Cert.Spec.sources Cert.Spec.targets
  rfl

end Cert.ReferenceIdeal.RefValue

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Product0.lean ====
/-
  One dense product of the network, computed block by block, is the product of the whole arrays.

  The call walks the `100000` rows in 50 blocks of 2000. At a block the body loads the block's rows of the left
  operand and the whole right operand and stores their matrix product (a change of float format on the way in is the
  identity at the ideal values; the accumulator starts at zero). Entry (p, q) of block t is therefore the sum over the
  contracted coordinate k of A(2000 t + p, k) * B(k, q), which is entry (2000 t + p, q) of the product of the whole
  arrays. The blocks tile the rows, so the output array ends as that product. Everything is stated for arbitrary
  contents of the buffers at the call's entry.
-/
import proofs.«110234_j1219770712387_1_alg».proof.Proof.Gen.KernelIdeal.Frame
import proofs.«110234_j1219770712387_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Product0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of two whole arrays, as the host spells it. -/
abbrev whole (D : DotDims S100000x128 S128x64 S100000x64) (A : S100000x128.Idx → Elt Ideal .f32)
    (B : S128x64.Idx → Elt Ideal .f32) : S100000x64.Idx → Elt Ideal .f32 :=
  Host.dotGeneral (F := Ideal) (φ₁ := .f32) (φ₂ := .f32) D none A B

/-- Entry (p, q) of a block's product is entry (r0 + p, q) of the whole product, when the block's left operand holds
    rows r0 … r0 + 1999 of A and its right operand is B. -/
theorem block_entry (D : DotDims S100000x128 S128x64 S100000x64) (hD : D = DotDims.plain 100000 128 64)
    (A : FVec Ideal S100000x128 .f32) (B : FVec Ideal S128x64 .f32)
    (x0 : Vec Ideal S2000x128 .f32) (x1 : Vec Ideal S128x64 .f32) (r0 : Nat)
    (h0 : ∀ (p : Fin 2000) (k : Fin 128) (hp : r0 + p.val < 100000), x0 (ix2 p k) = A (ix2 ⟨r0 + p.val, hp⟩ k))
    (h1 : ∀ (k : Fin 128) (q : Fin 64), x1 (ix2 k q) = B (ix2 k q))
    (j : S2000x64.Idx) (i : S100000x64.Idx) (hi0 : (i 0).val = r0 + (j 0).val) (hi1 : (i 1).val = (j 1).val) :
    k0_pay1 x0 x1 j = whole D A B i := by
  obtain ⟨p, q, rfl⟩ : ∃ (p : Fin 2000) (q : Fin 64), j = ix2 p q := ⟨j 0, j 1, eq_ix2 j⟩
  obtain ⟨a, b, rfl⟩ : ∃ (a : Fin 100000) (b : Fin 64), i = ix2 a b := ⟨i 0, i 1, eq_ix2 i⟩
  have ha : a.val = r0 + p.val := hi0
  have hb : b = q := Fin.ext hi1
  subst hb
  refine ((Cert.PlainDot.matmul_zero_apply dot_S2000x128_S128x64_S2000x64_1_0_0_1_n_n rfl none _ _ p b).trans ?_).trans
    (Cert.PlainDot.dotGeneral_apply D hD none .single A B a b).symm
  refine Finset.sum_congr rfl fun k _ => ?_
  have hp : r0 + p.val < 100000 := ha ▸ a.isLt
  have e : (⟨r0 + p.val, hp⟩ : Fin 100000) = a := Fin.ext ha.symm
  show x0 (ix2 p k) * x1 (ix2 k b) = A (ix2 a k) * B (ix2 k b)
  rw [h0 p k hp, h1 k b, e]

/-- The printed index maps, decided over the grid: block t of the left operand and of the output starts at row
    block t, and the right operand's one block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of the product of the arrays as the call finds them. -/
theorem flushed_eq (D : DotDims S100000x128 S128x64 S100000x64) (hD : D = DotDims.plain 100000 128 64)
    (c : Dev nD) (t : Fin cfg0.N) :
    (dat0 V c).flushed 2 t = ((cfg0.win 2).blk t).view.read (Elt Ideal)
      (whole D (V c main_arg0) (V c main_arg1)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  funext j
  refine block_entry D hD (V c main_arg0) (V c main_arg1) (iblk0 V c 0 t) (iblk0 V c 1 t) (2000 * t.val) ?_ ?_ j
    (((cfg0.win 2).blk t).view.emb j) ?_ ?_
  · intro p k hp
    show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = 2000 * t.val + p.val; rw [e0]; omega
    | ⟨1, _⟩ => show win0_0.index t (1 : Fin 2) * 128 + 1 * k.val = k.val; rw [e1]; omega
  · intro k q
    show V c main_arg1 (((cfg0.win 1).blk t).view.emb (ix2 k q)) = _
    refine congrArg (V c main_arg1) ?_
    funext a; apply Fin.ext
    match a with
    | ⟨0, _⟩ => show win0_1.index t (0 : Fin 2) * 128 + 1 * k.val = k.val; rw [e2]; omega
    | ⟨1, _⟩ => show win0_1.index t (1 : Fin 2) * 64 + 1 * q.val = q.val; rw [e3]; omega
  · show win0_2.index t (0 : Fin 2) * 2000 + 1 * (j 0).val = 2000 * t.val + (j 0).val; rw [e4]; omega
  · show win0_2.index t (1 : Fin 2) * 64 + 1 * (j 1).val = (j 1).val; rw [e5]; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v30).slice (win0_2.rect t)).set ↔ _
  rw [View.set_slice_whole, Rect.mem_set_unit]
  exact Iff.rfl

/-- Every index of the output array is in the block of the point that owns its row. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the call: the product of the two operand arrays as the call found them. -/
theorem final (D : DotDims S100000x128 S128x64 S100000x64) (hD : D = DotDims.plain 100000 128 64) (c : Dev nD) :
    (dat0 V c).arrAt 2 cfg0.N = whole D (V c main_arg0) (V c main_arg1) :=
  (dat0 V c).arrAt_eq_of_cover 2 _ (fun t _ => flushed_eq V D hD c t) covered

end Cert.KernelIdeal.Product0

end
-- ==== Proof.Product2.lean ====
/-
  One dense product of the network, computed block by block, is the product of the whole arrays.

  The call walks the `100000` rows in 50 blocks of 2000. At a block the body loads the block's rows of the left
  operand and the whole right operand and stores their matrix product (a change of float format on the way in is the
  identity at the ideal values; the accumulator starts at zero). Entry (p, q) of block t is therefore the sum over the
  contracted coordinate k of A(2000 t + p, k) * B(k, q), which is entry (2000 t + p, q) of the product of the whole
  arrays. The blocks tile the rows, so the output array ends as that product. Everything is stated for arbitrary
  contents of the buffers at the call's entry.
-/
import proofs.«110234_j1219770712387_1_alg».proof.Proof.Gen.KernelIdeal.Frame
import proofs.«110234_j1219770712387_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Product2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of two whole arrays, as the host spells it. -/
abbrev whole (D : DotDims S100000x64 S64x32 S100000x32) (A : S100000x64.Idx → Elt Ideal .f32)
    (B : S64x32.Idx → Elt Ideal .f32) : S100000x32.Idx → Elt Ideal .f32 :=
  Host.dotGeneral (F := Ideal) (φ₁ := .f32) (φ₂ := .f32) D none A B

/-- Entry (p, q) of a block's product is entry (r0 + p, q) of the whole product, when the block's left operand holds
    rows r0 … r0 + 1999 of A and its right operand is B. -/
theorem block_entry (D : DotDims S100000x64 S64x32 S100000x32) (hD : D = DotDims.plain 100000 64 32)
    (A : FVec Ideal S100000x64 .f32) (B : FVec Ideal S64x32 .f32)
    (x0 : Vec Ideal S2000x64 .f32) (x1 : Vec Ideal S64x32 .f32) (r0 : Nat)
    (h0 : ∀ (p : Fin 2000) (k : Fin 64) (hp : r0 + p.val < 100000), x0 (ix2 p k) = A (ix2 ⟨r0 + p.val, hp⟩ k))
    (h1 : ∀ (k : Fin 64) (q : Fin 32), x1 (ix2 k q) = B (ix2 k q))
    (j : S2000x32.Idx) (i : S100000x32.Idx) (hi0 : (i 0).val = r0 + (j 0).val) (hi1 : (i 1).val = (j 1).val) :
    k2_pay1 x0 x1 j = whole D A B i := by
  obtain ⟨p, q, rfl⟩ : ∃ (p : Fin 2000) (q : Fin 32), j = ix2 p q := ⟨j 0, j 1, eq_ix2 j⟩
  obtain ⟨a, b, rfl⟩ : ∃ (a : Fin 100000) (b : Fin 32), i = ix2 a b := ⟨i 0, i 1, eq_ix2 i⟩
  have ha : a.val = r0 + p.val := hi0
  have hb : b = q := Fin.ext hi1
  subst hb
  simp only [k2_pay1, shapeCast_self]
  refine ((Cert.PlainDot.matmul_zero_apply dot_S2000x64_S64x32_S2000x32_1_0_0_1_n_n rfl none _ _ p b).trans ?_).trans
    (Cert.PlainDot.dotGeneral_apply D hD none .single A B a b).symm
  refine Finset.sum_congr rfl fun k _ => ?_
  have hp : r0 + p.val < 100000 := ha ▸ a.isLt
  have e : (⟨r0 + p.val, hp⟩ : Fin 100000) = a := Fin.ext ha.symm
  show x0 (ix2 p k) * x1 (ix2 k b) = A (ix2 a k) * B (ix2 k b)
  rw [h0 p k hp, h1 k b, e]

/-- The printed index maps, decided over the grid: block t of the left operand and of the output starts at row
    block t, and the right operand's one block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point t writes back is block t of the product of the arrays as the call finds them. -/
theorem flushed_eq (D : DotDims S100000x64 S64x32 S100000x32) (hD : D = DotDims.plain 100000 64 32)
    (c : Dev nD) (t : Fin cfg2.N) :
    (dat2 V c).flushed 2 t = ((cfg2.win 2).blk t).view.read (Elt Ideal)
      (whole D (V c main_v45) (V c main_arg3)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x32) hz]
  obtain ⟨e0, e1, e2, e3, e4, e5⟩ := idx_facts t
  funext j
  refine block_entry D hD (V c main_v45) (V c main_arg3) (iblk2 V c 0 t) (iblk2 V c 1 t) (2000 * t.val) ?_ ?_ j
    (((cfg2.win 2).blk t).view.emb j) ?_ ?_
  · intro p k hp
    show V c main_v45 (((cfg2.win 0).blk t).view.emb (ix2 p k)) = _
    refine congrArg (V c main_v45) ?_
    funext a; apply Fin.ext
    match a with
    | ⟨0, _⟩ => show win2_0.index t (0 : Fin 2) * 2000 + 1 * p.val = 2000 * t.val + p.val; rw [e0]; omega
    | ⟨1, _⟩ => show win2_0.index t (1 : Fin 2) * 64 + 1 * k.val = k.val; rw [e1]; omega
  · intro k q
    show V c main_arg3 (((cfg2.win 1).blk t).view.emb (ix2 k q)) = _
    refine congrArg (V c main_arg3) ?_
    funext a; apply Fin.ext
    match a with
    | ⟨0, _⟩ => show win2_1.index t (0 : Fin 2) * 64 + 1 * k.val = k.val; rw [e2]; omega
    | ⟨1, _⟩ => show win2_1.index t (1 : Fin 2) * 32 + 1 * q.val = q.val; rw [e3]; omega
  · show win2_2.index t (0 : Fin 2) * 2000 + 1 * (j 0).val = 2000 * t.val + (j 0).val; rw [e4]; omega
  · show win2_2.index t (1 : Fin 2) * 32 + 1 * (j 1).val = (j 1).val; rw [e5]; omega

/-- An index of the output array is in point t's block iff each coordinate is in the block's range on its axis. -/
theorem mem_blk (t : Fin cfg2.N) (i : S100000x32.Idx) :
    i ∈ ((cfg2.win 2).blk t).view.set ↔ ∀ a : Fin 2, win2_2.index t a * S2000x32.size a ≤ (i a).val
      ∧ (i a).val < win2_2.index t a * S2000x32.size a + S2000x32.size a := by
  show i ∈ ((View.whole main_v46).slice (win2_2.rect t)).set ↔ _
  rw [View.set_slice_whole, Rect.mem_set_unit]
  exact Iff.rfl

/-- Every index of the output array is in the block of the point that owns its row. -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 32 ≤ (i 1).val ∧ (i 1).val < win2_2.index t (1 : Fin 2) * 32 + 32; omega

/-- The output array after the call: the product of the two operand arrays as the call found them. -/
theorem final (D : DotDims S100000x64 S64x32 S100000x32) (hD : D = DotDims.plain 100000 64 32) (c : Dev nD) :
    (dat2 V c).arrAt 2 cfg2.N = whole D (V c main_v45) (V c main_arg3) :=
  (dat2 V c).arrAt_eq_of_cover 2 _ (fun t _ => flushed_eq V D hD c t) covered

end Cert.KernelIdeal.Product2

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.Bias1.lean ====
/-
  The bias and rectifier stage of a layer, computed block by block, is the same stage on the whole arrays.

  The call walks the 100000 rows in 50 blocks of 2000. At a block the body loads the block's rows of the aggregated
  features and the 1×64 bias row, copies the row to every row of the block and adds, then takes the maximum with zero.
  Entry (p, l) of block t is therefore max(X(2000 t + p, l) + b(0, l), 0), which is entry (2000 t + p, l) of the host's
  spelling of the stage: X plus the row broadcast along both axes, then the maximum with a broadcast zero. The blocks tile the
  rows, so the output array ends as that. Everything is stated for arbitrary contents of the buffers at the call's entry.
-/
import proofs.«110234_j1219770712387_1_alg».proof.Proof.Gen.KernelIdeal.Frame
import proofs.«110234_j1219770712387_1_alg».proof.Proof.LibRowVector
import proofs.«110234_j1219770712387_1_alg».proof.Proof.LibRowInDim
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stage on whole arrays, as the host spells it: the bias row broadcast along both axes and added, then the maximum with a broadcast zero. -/
abbrev whole (hB : S1x64.BroadcastsInDim S100000x64 (![0, 1] : Fin 2 → Fin S100000x64.rank))
    (hZ : S_.BroadcastsInDim S100000x64 (![] : Fin 0 → Fin S100000x64.rank))
    (X : S100000x64.Idx → Elt Ideal .f32) (b : S1x64.Idx → Elt Ideal .f32) : S100000x64.Idx → Elt Ideal .f32 :=
  maximumf (F := Ideal) (φ := .f32) (addf (F := Ideal) (φ := .f32) X (broadcastInDim (s := S1x64) (α := Ideal .f32) S100000x64 ![0, 1] hB b))
    (broadcastInDim (s := S_) (α := Ideal .f32) S100000x64 ![] hZ (constant (F := Ideal) S_ .f32 0x00000000#32))

/-- Entry (p, l) of a block's stage is entry (r0 + p, l) of the whole stage, when the block holds rows r0 … r0 + 1999
    of X and the block's row is the bias row. -/
theorem block_entry (hB : S1x64.BroadcastsInDim S100000x64 (![0, 1] : Fin 2 → Fin S100000x64.rank))
    (hZ : S_.BroadcastsInDim S100000x64 (![] : Fin 0 → Fin S100000x64.rank))
    (X : S100000x64.Idx → Elt Ideal .f32) (b : S1x64.Idx → Elt Ideal .f32)
    (x0 : Vec Ideal S2000x64 .f32) (x1 : Vec Ideal S1x64 .f32) (r0 : Nat)
    (h0 : ∀ (p : Fin 2000) (l : Fin 64) (hp : r0 + p.val < 100000), x0 (ix2 p l) = X (ix2 ⟨r0 + p.val, hp⟩ l))
    (h1 : ∀ (l : Fin 64), x1 (ix2 0 l) = b (ix2 0 l))
    (j : S2000x64.Idx) (i : S100000x64.Idx) (hi0 : (i 0).val = r0 + (j 0).val) (hi1 : (i 1).val = (j 1).val) :
    k1_pay1 x0 x1 j = whole hB hZ X b i := by
  obtain ⟨p, q, rfl⟩ : ∃ (p : Fin 2000) (q : Fin 64), j = ix2 p q := ⟨j 0, j 1, eq_ix2 j⟩
  obtain ⟨a, l, rfl⟩ : ∃ (a : Fin 100000) (l : Fin 64), i = ix2 a l := ⟨i 0, i 1, eq_ix2 i⟩
  have ha : a.val = r0 + p.val := hi0
  have hl : l = q := Fin.ext hi1
  subst hl
  have hp : r0 + p.val < 100000 := ha ▸ a.isLt
  have e : (⟨r0 + p.val, hp⟩ : Fin 100000) = a := Fin.ext ha.symm
  have eK : broadcastTo S2000x64 x1 broadcasts_S1x64_S2000x64 (ix2 p l) = x1 (ix2 0 l) :=
    Cert.RowVector.broadcastTo_row (by decide) x1 _ p l
  have eH : broadcastInDim (s := S1x64) (α := Ideal .f32) S100000x64 ![0, 1] hB b (ix2 a l) = b (ix2 0 l) :=
    Cert.RowInDim.broadcastInDim_rows (by decide) b hB a l
  simp only [k1_pay1, shapeCast_self]
  show FloatOps.maximumf (FloatOps.addf (x0 (ix2 p l)) (broadcastTo S2000x64 x1 broadcasts_S1x64_S2000x64 (ix2 p l))) _
    = FloatOps.maximumf (FloatOps.addf (X (ix2 a l)) (broadcastInDim (s := S1x64) (α := Ideal .f32) S100000x64 ![0, 1] hB b (ix2 a l))) _
  rw [eK, eH, h0 p l hp, h1 l, e]
  rfl

/-- The printed index maps, decided over the grid: block t of the features and of the output starts at row block t,
    and the bias row's one block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

/-- What point t writes back is block t of the stage on the arrays as the call finds them. -/
theorem flushed_eq (hB : S1x64.BroadcastsInDim S100000x64 (![0, 1] : Fin 2 → Fin S100000x64.rank))
    (hZ : S_.BroadcastsInDim S100000x64 (![] : Fin 0 → Fin S100000x64.rank))
    (c : Dev nD) (t : Fin cfg1.N) :
    (dat1 V c).flushed 2 t = ((cfg1.win 2).blk t).view.read (Elt Ideal)
      (whole hB hZ (V c main_v43) (V c main_v44)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨e0, e1, e2, e3, e4, e5⟩ := idx_facts t
  funext j
  refine block_entry hB hZ (V c main_v43) (V c main_v44) (iblk1 V c 0 t) (iblk1 V c 1 t) (2000 * t.val) ?_ ?_ j
    (((cfg1.win 2).blk t).view.emb j) ?_ ?_
  · intro p l hp
    show V c main_v43 (((cfg1.win 0).blk t).view.emb (ix2 p l)) = _
    refine congrArg (V c main_v43) ?_
    funext a; apply Fin.ext
    match a with
    | ⟨0, _⟩ => show win1_0.index t (0 : Fin 2) * 2000 + 1 * p.val = 2000 * t.val + p.val; rw [e0]; omega
    | ⟨1, _⟩ => show win1_0.index t (1 : Fin 2) * 64 + 1 * l.val = l.val; rw [e1]; omega
  · intro l
    show V c main_v44 (((cfg1.win 1).blk t).view.emb (ix2 0 l)) = _
    refine congrArg (V c main_v44) ?_
    funext a; apply Fin.ext
    match a with
    | ⟨0, _⟩ => show win1_1.index t (0 : Fin 2) * 1 + 1 * 0 = 0; rw [e2]
    | ⟨1, _⟩ => show win1_1.index t (1 : Fin 2) * 64 + 1 * l.val = l.val; rw [e3]; omega
  · show win1_2.index t (0 : Fin 2) * 2000 + 1 * (j 0).val = 2000 * t.val + (j 0).val; rw [e4]; omega
  · show win1_2.index t (1 : Fin 2) * 64 + 1 * (j 1).val = (j 1).val; rw [e5]; omega

/-- An index of the output array is in point t's block iff each coordinate is in the block's range on its axis. -/
theorem mem_blk (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v45).slice (win1_2.rect t)).set ↔ _
  rw [View.set_slice_whole, Rect.mem_set_unit]
  exact Iff.rfl

/-- Every index of the output array is in the block of the point that owns its row. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- The output array after the call: the stage applied to the two operand arrays as the call found them. -/
theorem final (hB : S1x64.BroadcastsInDim S100000x64 (![0, 1] : Fin 2 → Fin S100000x64.rank))
    (hZ : S_.BroadcastsInDim S100000x64 (![] : Fin 0 → Fin S100000x64.rank)) (c : Dev nD) :
    (dat1 V c).arrAt 2 cfg1.N = whole hB hZ (V c main_v43) (V c main_v44) :=
  (dat1 V c).arrAt_eq_of_cover 2 _ (fun t _ => flushed_eq V hB hZ c t) covered

end Cert.KernelIdeal.Bias1

end
-- ==== Proof.Bias3.lean ====
/-
  The bias stage of a layer, computed block by block, is the same stage on the whole arrays.

  The call walks the 100000 rows in 50 blocks of 2000. At a block the body loads the block's rows of the aggregated
  features and the 1×32 bias row, copies the row to every row of the block and adds.
  Entry (p, l) of block t is therefore X(2000 t + p, l) + b(0, l), which is entry (2000 t + p, l) of the host's
  spelling of the stage: X plus the row broadcast along both axes. The blocks tile the
  rows, so the output array ends as that. Everything is stated for arbitrary contents of the buffers at the call's entry.
-/
import proofs.«110234_j1219770712387_1_alg».proof.Proof.Gen.KernelIdeal.Frame
import proofs.«110234_j1219770712387_1_alg».proof.Proof.LibRowVector
import proofs.«110234_j1219770712387_1_alg».proof.Proof.LibRowInDim
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stage on whole arrays, as the host spells it: the bias row broadcast along both axes and added. -/
abbrev whole (hB : S1x32.BroadcastsInDim S100000x32 (![0, 1] : Fin 2 → Fin S100000x32.rank))
    (X : S100000x32.Idx → Elt Ideal .f32) (b : S1x32.Idx → Elt Ideal .f32) : S100000x32.Idx → Elt Ideal .f32 :=
  addf (F := Ideal) (φ := .f32) X (broadcastInDim (s := S1x32) (α := Ideal .f32) S100000x32 ![0, 1] hB b)

/-- Entry (p, l) of a block's stage is entry (r0 + p, l) of the whole stage, when the block holds rows r0 … r0 + 1999
    of X and the block's row is the bias row. -/
theorem block_entry (hB : S1x32.BroadcastsInDim S100000x32 (![0, 1] : Fin 2 → Fin S100000x32.rank))
    (X : S100000x32.Idx → Elt Ideal .f32) (b : S1x32.Idx → Elt Ideal .f32)
    (x0 : Vec Ideal S2000x32 .f32) (x1 : Vec Ideal S1x32 .f32) (r0 : Nat)
    (h0 : ∀ (p : Fin 2000) (l : Fin 32) (hp : r0 + p.val < 100000), x0 (ix2 p l) = X (ix2 ⟨r0 + p.val, hp⟩ l))
    (h1 : ∀ (l : Fin 32), x1 (ix2 0 l) = b (ix2 0 l))
    (j : S2000x32.Idx) (i : S100000x32.Idx) (hi0 : (i 0).val = r0 + (j 0).val) (hi1 : (i 1).val = (j 1).val) :
    k3_pay1 x0 x1 j = whole hB X b i := by
  obtain ⟨p, q, rfl⟩ : ∃ (p : Fin 2000) (q : Fin 32), j = ix2 p q := ⟨j 0, j 1, eq_ix2 j⟩
  obtain ⟨a, l, rfl⟩ : ∃ (a : Fin 100000) (l : Fin 32), i = ix2 a l := ⟨i 0, i 1, eq_ix2 i⟩
  have ha : a.val = r0 + p.val := hi0
  have hl : l = q := Fin.ext hi1
  subst hl
  have hp : r0 + p.val < 100000 := ha ▸ a.isLt
  have e : (⟨r0 + p.val, hp⟩ : Fin 100000) = a := Fin.ext ha.symm
  have eK : broadcastTo S2000x32 x1 broadcasts_S1x32_S2000x32 (ix2 p l) = x1 (ix2 0 l) :=
    Cert.RowVector.broadcastTo_row (by decide) x1 _ p l
  have eH : broadcastInDim (s := S1x32) (α := Ideal .f32) S100000x32 ![0, 1] hB b (ix2 a l) = b (ix2 0 l) :=
    Cert.RowInDim.broadcastInDim_rows (by decide) b hB a l
  simp only [k3_pay1, shapeCast_self]
  show FloatOps.addf (x0 (ix2 p l)) (broadcastTo S2000x32 x1 broadcasts_S1x32_S2000x32 (ix2 p l))
    = FloatOps.addf (X (ix2 a l)) (broadcastInDim (s := S1x32) (α := Ideal .f32) S100000x32 ![0, 1] hB b (ix2 a l))
  rw [eK, eH, h0 p l hp, h1 l, e]

/-- The printed index maps, decided over the grid: block t of the features and of the output starts at row block t,
    and the bias row's one block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem idx_onto : ∀ q0 : Fin 50, ∃ t : Fin cfg3.N, win3_2.index t = ![q0.val, 0] :=
  (by decide +kernel : ∀ q0 : Fin 50, ∃ t : Fin grid3.N, win3_2.index t = ![q0.val, 0])

/-- What point t writes back is block t of the stage on the arrays as the call finds them. -/
theorem flushed_eq (hB : S1x32.BroadcastsInDim S100000x32 (![0, 1] : Fin 2 → Fin S100000x32.rank))
    (c : Dev nD) (t : Fin cfg3.N) :
    (dat3 V c).flushed 2 t = ((cfg3.win 2).blk t).view.read (Elt Ideal)
      (whole hB (V c main_v59) (V c main_v60)) := by
  show (cfg3.win 2).cut (grid3.coords t) ((dat3 V c).after 2 t) = _
  rw [after3_2]
  unfold out3_2
  rw [View.canon_unit_zero hz]
  simp only [View.ld_unit_zero (S := S2000x32) hz, View.ld_unit_zero (S := S1x32) hz]
  obtain ⟨e0, e1, e2, e3, e4, e5⟩ := idx_facts t
  funext j
  refine block_entry hB (V c main_v59) (V c main_v60) (iblk3 V c 0 t) (iblk3 V c 1 t) (2000 * t.val) ?_ ?_ j
    (((cfg3.win 2).blk t).view.emb j) ?_ ?_
  · intro p l hp
    show V c main_v59 (((cfg3.win 0).blk t).view.emb (ix2 p l)) = _
    refine congrArg (V c main_v59) ?_
    funext a; apply Fin.ext
    match a with
    | ⟨0, _⟩ => show win3_0.index t (0 : Fin 2) * 2000 + 1 * p.val = 2000 * t.val + p.val; rw [e0]; omega
    | ⟨1, _⟩ => show win3_0.index t (1 : Fin 2) * 32 + 1 * l.val = l.val; rw [e1]; omega
  · intro l
    show V c main_v60 (((cfg3.win 1).blk t).view.emb (ix2 0 l)) = _
    refine congrArg (V c main_v60) ?_
    funext a; apply Fin.ext
    match a with
    | ⟨0, _⟩ => show win3_1.index t (0 : Fin 2) * 1 + 1 * 0 = 0; rw [e2]
    | ⟨1, _⟩ => show win3_1.index t (1 : Fin 2) * 32 + 1 * l.val = l.val; rw [e3]; omega
  · show win3_2.index t (0 : Fin 2) * 2000 + 1 * (j 0).val = 2000 * t.val + (j 0).val; rw [e4]; omega
  · show win3_2.index t (1 : Fin 2) * 32 + 1 * (j 1).val = (j 1).val; rw [e5]; omega

/-- An index of the output array is in point t's block iff each coordinate is in the block's range on its axis. -/
theorem mem_blk (t : Fin cfg3.N) (i : S100000x32.Idx) :
    i ∈ ((cfg3.win 2).blk t).view.set ↔ ∀ a : Fin 2, win3_2.index t a * S2000x32.size a ≤ (i a).val
      ∧ (i a).val < win3_2.index t a * S2000x32.size a + S2000x32.size a := by
  show i ∈ ((View.whole main_v61).slice (win3_2.rect t)).set ↔ _
  rw [View.set_slice_whole, Rect.mem_set_unit]
  exact Iff.rfl

/-- Every index of the output array is in the block of the point that owns its row. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 32 ≤ (i 1).val ∧ (i 1).val < win3_2.index t (1 : Fin 2) * 32 + 32; omega

/-- The output array after the call: the stage applied to the two operand arrays as the call found them. -/
theorem final (hB : S1x32.BroadcastsInDim S100000x32 (![0, 1] : Fin 2 → Fin S100000x32.rank)) (c : Dev nD) :
    (dat3 V c).arrAt 2 cfg3.N = whole hB (V c main_v59) (V c main_v60) :=
  (dat3 V c).arrAt_eq_of_cover 2 _ (fun t _ => flushed_eq V hB c t) covered

end Cert.KernelIdeal.Bias3

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibColumns.lean ====
/-
  A single column of a matrix, read at an index: an [a, 1] column cast to a length-a vector reads the column's entry of the
  row, and column c of an [a, b] matrix, cut out as an [a, 1] column and cast to a vector, reads the matrix at (row, c).
-/
import Idealize.ShloMosaic.Lib.Pipeline.Value
import Idealize.ShloMosaic.Lib.ValueIdx
import Idealize.ShloMosaic.Lib.ValueLayout

namespace Idealize.ShloMosaic.Columns

open Idealize.ShloMosaic Idealize.ShloMosaic.ValueIdx

variable {α : Type}

/-- An [a, 1] column cast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column c of an [a, b] matrix, cut out as [a, 1] and cast to [a], reads, at i, the matrix at (i, c). -/
theorem column_apply {a b : ℕ} (c : Fin b) (X : (⟨2, ![a, b]⟩ : Shape).Idx → α)
    (h : (⟨2, ![a, b]⟩ : Shape).Slices ![0, c.val] ⟨2, ![a, 1]⟩) (h' : (⟨2, ![a, 1]⟩ : Shape).ShapeCasts ⟨1, ![a]⟩) (i : Fin a) :
    shapeCast ⟨1, ![a]⟩ (extractStridedSlice ⟨2, ![a, 1]⟩ ![0, c.val] X h) h' (ix1 i) = X (ix2 i c) :=
  (shapeCast_a1_a_apply _ h' i).trans (slice2_axis1_apply c.val X h i (0 : Fin 1) c (by simp))

end Idealize.ShloMosaic.Columns
-- ==== Proof.LibHostRowSum.lean ====
/-
  The host's sum over the second axis of an [a, b] array, read at a row.

  `stablehlo.reduce` with an `add` body over axis 1, at the ideal values, holds at row r the initial value plus the sum
  over the row's entries: the reduced index r with the dropped coordinate k put back is (r, k). No finiteness is asked:
  this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostRowSum

open Idealize.ShloMosaic Idealize.ShloMosaic.ValueIdx

/-- The reduced index r with the second-axis coordinate k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A shape fact of the host's reduction names the inserted index as well. -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) :=
  let ⟨hr, hs⟩ := h'; ⟨hr, Nat.one_pos, hs⟩

/-- The host's sum over the second axis, at row r: the initial value plus the sum over the row. -/
theorem hostRowSum_apply {a b : ℕ} (src : (⟨2, ![a, b]⟩ : Shape).Idx → EReal) (init : EReal)
    (h' : (⟨2, ![a, b]⟩ : Shape).ReducesTo [1] (⟨1, ![a]⟩ : Shape)) (r : Fin a) :
    Ideal.hostReduceAdd h' src init (ix1 r) = init + ∑ k : Fin b, src (ix2 r k) :=
  (Ideal.hostReduceAdd_single h' (reduces_of_reducesTo h') src init (ix1 r)).trans
    (congrArg (init + ·) (Finset.sum_congr rfl fun k _ => congrArg src (lift_row (reduces_of_reducesTo h') r k)))

/-- With the zero word as the initial value: the sum over the row. -/
theorem hostRowSum_zero_apply {a b : ℕ} (src : (⟨2, ![a, b]⟩ : Shape).Idx → EReal)
    (h' : (⟨2, ![a, b]⟩ : Shape).ReducesTo [1] (⟨1, ![a]⟩ : Shape)) (r : Fin a) :
    Ideal.hostReduceAdd h' src (Ideal.ofBits .f32 0x00000000#32) (ix1 r) = ∑ k : Fin b, src (ix2 r k) := by
  rw [hostRowSum_apply, Ideal.ofBits_zero_f32, zero_add]

end Cert.HostRowSum

end
-- ==== Proof.Decode.lean ====
/-
  The link scores, computed block by block, are the host's row sums of the product of the two gathered arrays.

  The call walks the 200000 label pairs in 20 blocks of 10000. At a block the body loads the block's rows of the two
  gathered feature arrays, multiplies them entry by entry, sums each row over its 32 lanes and stores the sums as a
  10000×1 column. Entry (p, 0) of block t is therefore the sum over l of Za(10000 t + p, l) * Zb(10000 t + p, l): the host's
  sum over axis 1 of the product, started from zero, at row 10000 t + p. The blocks tile the rows, so the 200000×1 output
  array ends as that vector laid out as a column, and its reshape to a vector is the host's reduction itself. Everything
  is stated for arbitrary contents of the buffers at the call's entry.
-/
import proofs.«110234_j1219770712387_1_alg».proof.Proof.Gen.KernelIdeal.Frame
import proofs.«110234_j1219770712387_1_alg».proof.Proof.LibRowOps
import proofs.«110234_j1219770712387_1_alg».proof.Proof.LibColumns
import proofs.«110234_j1219770712387_1_alg».proof.Proof.LibHostRowSum
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Decode

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The scores on whole arrays, as the host spells them: the sum over axis 1, from zero, of the entrywise product. -/
abbrev scores (hR : S200000x32.ReducesTo [1] S200000) (hU : 0 < S_.numel)
    (Za Zb : S200000x32.Idx → Elt Ideal .f32) : S200000.Idx → Elt Ideal .f32 :=
  Host.reduceAdd (F := Ideal) (φ := .f32) (s := S200000x32) (t := S200000) (u := S_)
    (mulf (F := Ideal) (φ := .f32) (s := S200000x32) Za Zb) (constant (F := Ideal) S_ .f32 0x00000000#32) hR hU

/-- The same vector laid out as a 200000×1 column. -/
abbrev column (hR : S200000x32.ReducesTo [1] S200000) (hU : 0 < S_.numel)
    (Za Zb : S200000x32.Idx → Elt Ideal .f32) : S200000x1.Idx → Elt Ideal .f32 :=
  fun i => scores hR hU Za Zb (ix1 (⟨(i 0).val, (i 0).isLt⟩ : Fin 200000))

/-- A score is the sum over the 32 lanes of the product of the two rows. -/
theorem scores_apply (hR : S200000x32.ReducesTo [1] S200000) (hU : 0 < S_.numel)
    (Za Zb : S200000x32.Idx → Elt Ideal .f32) (a : Fin 200000) :
    scores hR hU Za Zb (ix1 a) = ∑ l : Fin 32, Za (ix2 a l) * Zb (ix2 a l) :=
  Cert.HostRowSum.hostRowSum_zero_apply (a := 200000) (b := 32) (mulf (F := Ideal) (φ := .f32) (s := S200000x32) Za Zb) hR a

/-- The column cast to a vector is the host's reduction. -/
theorem column_cast (hR : S200000x32.ReducesTo [1] S200000) (hU : 0 < S_.numel) (hC : S200000x1.ShapeCasts S200000)
    (Za Zb : S200000x32.Idx → Elt Ideal .f32) :
    shapeCast S200000 (column hR hU Za Zb) hC = scores hR hU Za Zb := by
  funext i
  obtain ⟨a, rfl⟩ : ∃ a : Fin 200000, i = ix1 a := ⟨i 0, eq_ix1 i⟩
  exact Idealize.ShloMosaic.Columns.shapeCast_a1_a_apply (a := 200000) (column hR hU Za Zb) hC a

/-- Entry (p, 0) of a block's column is the score of row r0 + p, when the block's operands hold rows
    r0 … r0 + 9999 of the two gathered arrays. -/
theorem block_entry (hR : S200000x32.ReducesTo [1] S200000) (hU : 0 < S_.numel)
    (Za Zb : S200000x32.Idx → Elt Ideal .f32) (x0 x1 : Vec Ideal S10000x32 .f32) (r0 : Nat)
    (h0 : ∀ (p : Fin 10000) (l : Fin 32) (hp : r0 + p.val < 200000), x0 (ix2 p l) = Za (ix2 ⟨r0 + p.val, hp⟩ l))
    (h1 : ∀ (p : Fin 10000) (l : Fin 32) (hp : r0 + p.val < 200000), x1 (ix2 p l) = Zb (ix2 ⟨r0 + p.val, hp⟩ l))
    (j : S10000x1.Idx) (i : S200000x1.Idx) (hi0 : (i 0).val = r0 + (j 0).val) :
    k4_pay1 x0 x1 j = column hR hU Za Zb i := by
  obtain ⟨p, u, rfl⟩ : ∃ (p : Fin 10000) (u : Fin 1), j = ix2 p u := ⟨j 0, j 1, eq_ix2 j⟩
  have ha : (i 0).val = r0 + p.val := hi0
  have hp : r0 + p.val < 200000 := ha ▸ (i 0).isLt
  have e : (⟨(i 0).val, (i 0).isLt⟩ : Fin 200000) = ⟨r0 + p.val, hp⟩ := Fin.ext ha
  simp only [k4_pay1, shapeCast_self]
  refine (RowOps.shapeCast_a_a1_apply (a := 10000) _ shapeCasts_S10000_S10000x1 p u).trans ?_
  refine (RowOps.rowSum_apply (a := 10000) (b := 32) _ _ reduces_S10000x32_S10000 (.inl rfl) rfl p).trans ?_
  show _ = scores hR hU Za Zb (ix1 (⟨(i 0).val, (i 0).isLt⟩ : Fin 200000))
  rw [e, scores_apply]
  refine Finset.sum_congr rfl fun l _ => ?_
  show x0 (ix2 p l) * x1 (ix2 p l) = _
  rw [h0 p l hp, h1 p l hp]

/-- The printed index maps, decided over the grid: block t of each operand and of the output starts at row block t. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem idx_onto : ∀ q0 : Fin 20, ∃ t : Fin cfg4.N, win4_2.index t = ![q0.val, 0] :=
  (by decide +kernel : ∀ q0 : Fin 20, ∃ t : Fin grid4.N, win4_2.index t = ![q0.val, 0])

/-- What point t writes back is block t of the column of scores of the arrays as the call finds them. -/
theorem flushed_eq (hR : S200000x32.ReducesTo [1] S200000) (hU : 0 < S_.numel) (c : Dev nD) (t : Fin cfg4.N) :
    (dat4 V c).flushed 2 t = ((cfg4.win 2).blk t).view.read (Elt Ideal)
      (column hR hU (V c main_v70) (V c main_v79)) := by
  show (cfg4.win 2).cut (grid4.coords t) ((dat4 V c).after 2 t) = _
  rw [after4_2]
  unfold out4_2
  rw [View.canon_unit_zero hz]
  simp only [View.ld_unit_zero (S := S10000x32) hz]
  obtain ⟨e0, e1, e2, e3, e4, e5⟩ := idx_facts t
  funext j
  refine block_entry hR hU (V c main_v70) (V c main_v79) (iblk4 V c 0 t) (iblk4 V c 1 t) (10000 * t.val) ?_ ?_ j
    (((cfg4.win 2).blk t).view.emb j) ?_
  · intro p l hp
    show V c main_v70 (((cfg4.win 0).blk t).view.emb (ix2 p l)) = _
    refine congrArg (V c main_v70) ?_
    funext a; apply Fin.ext
    match a with
    | ⟨0, _⟩ => show win4_0.index t (0 : Fin 2) * 10000 + 1 * p.val = 10000 * t.val + p.val; rw [e0]; omega
    | ⟨1, _⟩ => show win4_0.index t (1 : Fin 2) * 32 + 1 * l.val = l.val; rw [e1]; omega
  · intro p l hp
    show V c main_v79 (((cfg4.win 1).blk t).view.emb (ix2 p l)) = _
    refine congrArg (V c main_v79) ?_
    funext a; apply Fin.ext
    match a with
    | ⟨0, _⟩ => show win4_1.index t (0 : Fin 2) * 10000 + 1 * p.val = 10000 * t.val + p.val; rw [e2]; omega
    | ⟨1, _⟩ => show win4_1.index t (1 : Fin 2) * 32 + 1 * l.val = l.val; rw [e3]; omega
  · show win4_2.index t (0 : Fin 2) * 10000 + 1 * (j 0).val = 10000 * t.val + (j 0).val; rw [e4]; omega

/-- An index of the output array is in point t's block iff each coordinate is in the block's range on its axis. -/
theorem mem_blk (t : Fin cfg4.N) (i : S200000x1.Idx) :
    i ∈ ((cfg4.win 2).blk t).view.set ↔ ∀ a : Fin 2, win4_2.index t a * S10000x1.size a ≤ (i a).val
      ∧ (i a).val < win4_2.index t a * S10000x1.size a + S10000x1.size a := by
  show i ∈ ((View.whole main_v80).slice (win4_2.rect t)).set ↔ _
  rw [View.set_slice_whole, Rect.mem_set_unit]
  exact Iff.rfl

/-- Every index of the output array is in the block of the point that owns its row. -/
theorem covered (i : S200000x1.Idx) :
    ∃ t : Fin cfg4.N, (cfg4.win 2).flush t = true ∧ i ∈ ((cfg4.win 2).blk t).view.set := by
  have hi0 : (i 0).val < 200000 := (i 0).isLt
  have hi1 : (i 1).val < 1 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/-- The output array after the call: the column of scores of the two operand arrays as the call found them. -/
theorem final (hR : S200000x32.ReducesTo [1] S200000) (hU : 0 < S_.numel) (c : Dev nD) :
    (dat4 V c).arrAt 2 cfg4.N = column hR hU (V c main_v70) (V c main_v79) :=
  (dat4 V c).arrAt_eq_of_cover 2 _ (fun t _ => flushed_eq V hR hU c t) covered

end Cert.KernelIdeal.Decode

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.KernelValue.lean ====
/-
  What every buffer of the kernel's program holds at each boundary between its host stretches and its calls, as a term
  of the seven arguments, up to the result.

  The program's buffer contents are a fold through its twelve segments. A host stretch applies its operations to the
  contents at its entry; a call leaves its output array at what its blocks wrote and everything else as entered. Walking
  the fold from the launch:
    * before the first call the host builds the edge ends (with self loops) and the edge coefficients;
    * call 0 multiplies the features by W1; the host gathers, scales and scatter-adds the product's rows along the
      edges; call 1 adds the bias row and rectifies: layer 1;
    * call 2 multiplies by W2; the host aggregates again; call 3 adds the bias row: layer 2;
    * the host gathers the two ends' rows of every labelled pair; call 4 sums the lanes of their products, and the last
      host line lays the column of sums out as a vector.
  Each call's output is the whole-array stage proved for it; a bias reshaped to a row is the bias broadcast into a row;
  so the result buffer ends at the network's function `Cert.Spec.score` of the arguments.
-/
import proofs.«110234_j1219770712387_1_alg».proof.Proof.Gen.KernelIdeal.Frame
import proofs.«110234_j1219770712387_1_alg».proof.Proof.Product0
import proofs.«110234_j1219770712387_1_alg».proof.Proof.Product2
import proofs.«110234_j1219770712387_1_alg».proof.Proof.Bias1
import proofs.«110234_j1219770712387_1_alg».proof.Proof.Bias3
import proofs.«110234_j1219770712387_1_alg».proof.Proof.Decode
import proofs.«110234_j1219770712387_1_alg».proof.Proof.Spec
import proofs.«110234_j1219770712387_1_alg».proof.Proof.LibRowOfVector
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

variable (X : Valuation τ sig (Elt Ideal))

/-! ## Each host stretch, from arbitrary contents `X` at its entry -/

/-! ### Before the first call: the edge ends, the degrees, the coefficients -/

theorem pre_sources : StableHlo.after hostOps0 X (Proc.devRef .tc main_v3) = Cert.Spec.sources (F := Ideal) (X (Proc.devRef .tc main_arg5)) := by
  unfold Cert.Spec.sources
  open Idealize.ShloMosaic.StableHlo in after_results_simp <;> rfl

theorem pre_targets : StableHlo.after hostOps0 X (Proc.devRef .tc main_v6) = Cert.Spec.targets (F := Ideal) (X (Proc.devRef .tc main_arg5)) := by
  unfold Cert.Spec.targets
  open Idealize.ShloMosaic.StableHlo in after_results_simp <;> rfl

theorem pre_positive : StableHlo.after hostOps0 X (Proc.devRef .tc main_v12) = cmpf (F := Ideal) .ogt (Cert.Spec.degree (F := Ideal) (Cert.Spec.targets (F := Ideal) (X (Proc.devRef .tc main_arg5)))) (broadcastInDim Cert.ReferenceIdeal.S100000 ![] Cert.ReferenceIdeal.Gen.bcast_S_S100000 (constant (F := Ideal) Cert.ReferenceIdeal.S_ .f32 0x00000000#32)) := by
  unfold Cert.Spec.degree Cert.Spec.targets
  open Idealize.ShloMosaic.StableHlo in after_results_simp <;> rfl

theorem pre_rsqrt : StableHlo.after hostOps0 X (Proc.devRef .tc main_v13) = Host.rsqrt (F := Ideal) (φ := .f32) (Cert.Spec.degree (F := Ideal) (Cert.Spec.targets (F := Ideal) (X (Proc.devRef .tc main_arg5)))) := by
  unfold Cert.Spec.degree Cert.Spec.targets
  open Idealize.ShloMosaic.StableHlo in after_results_simp <;> rfl

theorem pre_zero : StableHlo.after hostOps0 X (Proc.devRef .tc main_cst_2) = constant (F := Ideal) Cert.ReferenceIdeal.S_ .f32 0x00000000#32 := by
  open Idealize.ShloMosaic.StableHlo in after_results_simp <;> rfl

theorem where_weight : StableHlo.after hostOps0_1 X (Proc.devRef .tc main_v14) = select (X (Proc.devRef .tc main_v12)) (X (Proc.devRef .tc main_v13)) (broadcastInDim Cert.ReferenceIdeal.S100000 ![] Cert.ReferenceIdeal.Gen.bcast_S_S100000 (id (X (Proc.devRef .tc main_cst_2)))) := by
  open Idealize.ShloMosaic.StableHlo in after_results_simp <;> rfl

theorem where_keeps_sources : StableHlo.after hostOps0_1 X (Proc.devRef .tc main_v3) = X (Proc.devRef .tc main_v3) := by
  open Idealize.ShloMosaic.StableHlo in after_results_simp <;> rfl

theorem where_keeps_targets : StableHlo.after hostOps0_1 X (Proc.devRef .tc main_v6) = X (Proc.devRef .tc main_v6) := by
  open Idealize.ShloMosaic.StableHlo in after_results_simp <;> rfl

theorem coeff_of : StableHlo.after hostOps0_2 X (Proc.devRef .tc main_v29) = mulf (F := Ideal) (φ := .f32) (Host.gather (α := Ideal .f32) Cert.ReferenceIdeal.gather_S100000_S3300000x1_S3300000_n_0_n_n_0_1_1 (X (Proc.devRef .tc main_v14)) (Cert.Spec.wrapNode (F := Ideal) (X (Proc.devRef .tc main_v3)))) (Host.gather (α := Ideal .f32) Cert.ReferenceIdeal.gather_S100000_S3300000x1_S3300000_n_0_n_n_0_1_1 (X (Proc.devRef .tc main_v14)) (Cert.Spec.wrapNode (F := Ideal) (X (Proc.devRef .tc main_v6)))) := by
  unfold Cert.Spec.wrapNode
  open Idealize.ShloMosaic.StableHlo in after_results_simp <;> rfl

/-! ### Between the calls -/

theorem aggregate1_of : StableHlo.after hostOps1 X (Proc.devRef .tc main_v43) = Cert.Spec.aggregate64 (F := Ideal) (X (Proc.devRef .tc main_v3)) (X (Proc.devRef .tc main_v6)) (X (Proc.devRef .tc main_v29)) (X (Proc.devRef .tc main_v30)) := by
  unfold Cert.Spec.aggregate64 Cert.Spec.wrapNode
  open Idealize.ShloMosaic.StableHlo in after_results_simp <;> rfl

theorem biasrow1_of : StableHlo.after hostOps1 X (Proc.devRef .tc main_v44) = shapeCast S1x64 (X (Proc.devRef .tc main_arg2)) shapeCasts_S64_S1x64 := by
  open Idealize.ShloMosaic.StableHlo in after_results_simp <;> rfl

theorem stretch1_keeps_v3 : StableHlo.after hostOps1 X (Proc.devRef .tc main_v3) = X (Proc.devRef .tc main_v3) := by
  open Idealize.ShloMosaic.StableHlo in after_results_simp <;> rfl

theorem stretch1_keeps_v6 : StableHlo.after hostOps1 X (Proc.devRef .tc main_v6) = X (Proc.devRef .tc main_v6) := by
  open Idealize.ShloMosaic.StableHlo in after_results_simp <;> rfl

theorem stretch1_keeps_v29 : StableHlo.after hostOps1 X (Proc.devRef .tc main_v29) = X (Proc.devRef .tc main_v29) := by
  open Idealize.ShloMosaic.StableHlo in after_results_simp <;> rfl

theorem stretch1_keeps_arg3 : StableHlo.after hostOps1 X (Proc.devRef .tc main_arg3) = X (Proc.devRef .tc main_arg3) := by
  open Idealize.ShloMosaic.StableHlo in after_results_simp <;> rfl

theorem stretch1_keeps_arg4 : StableHlo.after hostOps1 X (Proc.devRef .tc main_arg4) = X (Proc.devRef .tc main_arg4) := by
  open Idealize.ShloMosaic.StableHlo in after_results_simp <;> rfl

theorem stretch1_keeps_arg6 : StableHlo.after hostOps1 X (Proc.devRef .tc main_arg6) = X (Proc.devRef .tc main_arg6) := by
  open Idealize.ShloMosaic.StableHlo in after_results_simp <;> rfl

theorem aggregate2_of : StableHlo.after hostOps3 X (Proc.devRef .tc main_v59) = Cert.Spec.aggregate32 (F := Ideal) (X (Proc.devRef .tc main_v3)) (X (Proc.devRef .tc main_v6)) (X (Proc.devRef .tc main_v29)) (X (Proc.devRef .tc main_v46)) := by
  unfold Cert.Spec.aggregate32 Cert.Spec.wrapNode
  open Idealize.ShloMosaic.StableHlo in after_results_simp <;> rfl

theorem biasrow2_of : StableHlo.after hostOps3 X (Proc.devRef .tc main_v60) = shapeCast S1x32 (X (Proc.devRef .tc main_arg4)) shapeCasts_S32_S1x32 := by
  open Idealize.ShloMosaic.StableHlo in after_results_simp <;> rfl

theorem stretch3_keeps_arg6 : StableHlo.after hostOps3 X (Proc.devRef .tc main_arg6) = X (Proc.devRef .tc main_arg6) := by
  open Idealize.ShloMosaic.StableHlo in after_results_simp <;> rfl

theorem firstRows_of : StableHlo.after hostOps4 X (Proc.devRef .tc main_v70) = Cert.Spec.rowsAt (F := Ideal) (X (Proc.devRef .tc main_v61)) (Cert.Spec.firsts (F := Ideal) (X (Proc.devRef .tc main_arg6))) := by
  unfold Cert.Spec.rowsAt Cert.Spec.wrapPair Cert.Spec.firsts
  open Idealize.ShloMosaic.StableHlo in after_results_simp <;> rfl

theorem secondRows_of : StableHlo.after hostOps4 X (Proc.devRef .tc main_v79) = Cert.Spec.rowsAt (F := Ideal) (X (Proc.devRef .tc main_v61)) (Cert.Spec.seconds (F := Ideal) (X (Proc.devRef .tc main_arg6))) := by
  unfold Cert.Spec.rowsAt Cert.Spec.wrapPair Cert.Spec.seconds
  open Idealize.ShloMosaic.StableHlo in after_results_simp <;> rfl

theorem result_of : StableHlo.after hostOps5 X (Proc.devRef .tc main_v81) = shapeCast S200000 (X (Proc.devRef .tc main_v80)) shapeCasts_S200000x1_S200000 := by
  open Idealize.ShloMosaic.StableHlo in after_results_simp <;> rfl

/-! ## The walk from the launch to the result -/

/-! ### Before the first call -/

theorem sources_at1 : W1 m ρ c (Proc.devRef .tc main_v3) = (Cert.Spec.sources (F := Ideal) (m ((c : Thread nD τ).loc main_arg5))) := pre_sources (W0 m ρ c)
theorem targets_at1 : W1 m ρ c (Proc.devRef .tc main_v6) = (Cert.Spec.targets (F := Ideal) (m ((c : Thread nD τ).loc main_arg5))) := pre_targets (W0 m ρ c)
theorem positive_at1 : W1 m ρ c (Proc.devRef .tc main_v12) = cmpf (F := Ideal) .ogt (Cert.Spec.degree (F := Ideal) (Cert.Spec.targets (F := Ideal) (m ((c : Thread nD τ).loc main_arg5)))) (broadcastInDim Cert.ReferenceIdeal.S100000 ![] Cert.ReferenceIdeal.Gen.bcast_S_S100000 (constant (F := Ideal) Cert.ReferenceIdeal.S_ .f32 0x00000000#32)) := pre_positive (W0 m ρ c)
theorem rsqrt_at1 : W1 m ρ c (Proc.devRef .tc main_v13) = Host.rsqrt (F := Ideal) (φ := .f32) (Cert.Spec.degree (F := Ideal) (Cert.Spec.targets (F := Ideal) (m ((c : Thread nD τ).loc main_arg5)))) := pre_rsqrt (W0 m ρ c)
theorem zero_at1 : W1 m ρ c (Proc.devRef .tc main_cst_2) = constant (F := Ideal) Cert.ReferenceIdeal.S_ .f32 0x00000000#32 := pre_zero (W0 m ρ c)

theorem weight_at2 : W2 m ρ c (Proc.devRef .tc main_v14) = Cert.Spec.degreeWeight (F := Ideal) (Cert.Spec.targets (F := Ideal) (m ((c : Thread nD τ).loc main_arg5))) := by
  refine (where_weight (W1 m ρ c)).trans ?_
  rw [positive_at1, rsqrt_at1, zero_at1]
  rfl
theorem sources_at2 : W2 m ρ c (Proc.devRef .tc main_v3) = (Cert.Spec.sources (F := Ideal) (m ((c : Thread nD τ).loc main_arg5))) := (where_keeps_sources (W1 m ρ c)).trans (sources_at1 m ρ c)
theorem targets_at2 : W2 m ρ c (Proc.devRef .tc main_v6) = (Cert.Spec.targets (F := Ideal) (m ((c : Thread nD τ).loc main_arg5))) := (where_keeps_targets (W1 m ρ c)).trans (targets_at1 m ρ c)

theorem coeff_at3 : W3 m ρ c (Proc.devRef .tc main_v29) = (Cert.Spec.edgeCoeff (F := Ideal) (Cert.Spec.sources (F := Ideal) (m ((c : Thread nD τ).loc main_arg5))) (Cert.Spec.targets (F := Ideal) (m ((c : Thread nD τ).loc main_arg5)))) := by
  refine (coeff_of (W2 m ρ c)).trans ?_
  rw [weight_at2, sources_at2, targets_at2]
  rfl

theorem v3_at3 : W3 m ρ c (Proc.devRef .tc main_v3) = (Cert.Spec.sources (F := Ideal) (m ((c : Thread nD τ).loc main_arg5))) := by
  show StableHlo.after hostOps0_2 (StableHlo.after hostOps0_1 (StableHlo.after hostOps0 (W0 m ρ c))) (Proc.devRef .tc main_v3) = _
  unfold Cert.Spec.sources
  open Idealize.ShloMosaic.StableHlo in after_results_simp <;> rfl
theorem v6_at3 : W3 m ρ c (Proc.devRef .tc main_v6) = (Cert.Spec.targets (F := Ideal) (m ((c : Thread nD τ).loc main_arg5))) := by
  show StableHlo.after hostOps0_2 (StableHlo.after hostOps0_1 (StableHlo.after hostOps0 (W0 m ρ c))) (Proc.devRef .tc main_v6) = _
  unfold Cert.Spec.targets
  open Idealize.ShloMosaic.StableHlo in after_results_simp <;> rfl
theorem v29_at3 : W3 m ρ c (Proc.devRef .tc main_v29) = (Cert.Spec.edgeCoeff (F := Ideal) (Cert.Spec.sources (F := Ideal) (m ((c : Thread nD τ).loc main_arg5))) (Cert.Spec.targets (F := Ideal) (m ((c : Thread nD τ).loc main_arg5)))) := coeff_at3 m ρ c
theorem arg0_at3 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  open Idealize.ShloMosaic.StableHlo in after_results_simp <;> rfl
theorem arg1_at3 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  open Idealize.ShloMosaic.StableHlo in after_results_simp <;> rfl
theorem arg2_at3 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  open Idealize.ShloMosaic.StableHlo in after_results_simp <;> rfl
theorem arg3_at3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  open Idealize.ShloMosaic.StableHlo in after_results_simp <;> rfl
theorem arg4_at3 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  open Idealize.ShloMosaic.StableHlo in after_results_simp <;> rfl
theorem arg6_at3 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  open Idealize.ShloMosaic.StableHlo in after_results_simp <;> rfl

/-! ### Call 0 and the aggregation after it -/

theorem product1_at4 : W4 m ρ c (Proc.devRef .tc main_v30) = (Cert.KernelIdeal.Product0.whole Cert.ReferenceIdeal.dot_S100000x128_S128x64_S100000x64_1_0_0_1_n_n (m ((c : Thread nD τ).loc main_arg0)) (m ((c : Thread nD τ).loc main_arg1))) := by
  refine (W4_arr m ρ c 2).trans ((Cert.KernelIdeal.Product0.final (V3 m ρ) Cert.ReferenceIdeal.dot_S100000x128_S128x64_S100000x64_1_0_0_1_n_n rfl c).trans ?_)
  show Cert.KernelIdeal.Product0.whole Cert.ReferenceIdeal.dot_S100000x128_S128x64_S100000x64_1_0_0_1_n_n (W3 m ρ c (Proc.devRef .tc main_arg0)) (W3 m ρ c (Proc.devRef .tc main_arg1)) = _
  rw [arg0_at3, arg1_at3]
theorem v3_at4 : W4 m ρ c (Proc.devRef .tc main_v3) = (Cert.Spec.sources (F := Ideal) (m ((c : Thread nD τ).loc main_arg5))) := (W4_of_ne m ρ c main_v3 (by decide)).trans (v3_at3 m ρ c)
theorem v6_at4 : W4 m ρ c (Proc.devRef .tc main_v6) = (Cert.Spec.targets (F := Ideal) (m ((c : Thread nD τ).loc main_arg5))) := (W4_of_ne m ρ c main_v6 (by decide)).trans (v6_at3 m ρ c)
theorem v29_at4 : W4 m ρ c (Proc.devRef .tc main_v29) = (Cert.Spec.edgeCoeff (F := Ideal) (Cert.Spec.sources (F := Ideal) (m ((c : Thread nD τ).loc main_arg5))) (Cert.Spec.targets (F := Ideal) (m ((c : Thread nD τ).loc main_arg5)))) := (W4_of_ne m ρ c main_v29 (by decide)).trans (v29_at3 m ρ c)
theorem arg2_at4 : W4 m ρ c (Proc.devRef .tc main_arg2) = (m ((c : Thread nD τ).loc main_arg2)) := (W4_of_ne m ρ c main_arg2 (by decide)).trans (arg2_at3 m ρ c)
theorem arg3_at4 : W4 m ρ c (Proc.devRef .tc main_arg3) = (m ((c : Thread nD τ).loc main_arg3)) := (W4_of_ne m ρ c main_arg3 (by decide)).trans (arg3_at3 m ρ c)
theorem arg4_at4 : W4 m ρ c (Proc.devRef .tc main_arg4) = (m ((c : Thread nD τ).loc main_arg4)) := (W4_of_ne m ρ c main_arg4 (by decide)).trans (arg4_at3 m ρ c)
theorem arg6_at4 : W4 m ρ c (Proc.devRef .tc main_arg6) = (m ((c : Thread nD τ).loc main_arg6)) := (W4_of_ne m ρ c main_arg6 (by decide)).trans (arg6_at3 m ρ c)

theorem aggregate1_at5 : W5 m ρ c (Proc.devRef .tc main_v43) = (Cert.Spec.aggregate64 (F := Ideal) (Cert.Spec.sources (F := Ideal) (m ((c : Thread nD τ).loc main_arg5))) (Cert.Spec.targets (F := Ideal) (m ((c : Thread nD τ).loc main_arg5))) (Cert.Spec.edgeCoeff (F := Ideal) (Cert.Spec.sources (F := Ideal) (m ((c : Thread nD τ).loc main_arg5))) (Cert.Spec.targets (F := Ideal) (m ((c : Thread nD τ).loc main_arg5)))) (Cert.KernelIdeal.Product0.whole Cert.ReferenceIdeal.dot_S100000x128_S128x64_S100000x64_1_0_0_1_n_n (m ((c : Thread nD τ).loc main_arg0)) (m ((c : Thread nD τ).loc main_arg1)))) := by
  refine (aggregate1_of (W4 m ρ c)).trans ?_
  rw [v3_at4, v6_at4, v29_at4, product1_at4]
theorem biasrow1_at5 : W5 m ρ c (Proc.devRef .tc main_v44) = (broadcastInDim (s := Cert.ReferenceIdeal.S64) (α := Ideal .f32) Cert.ReferenceIdeal.S1x64 ![1] Cert.ReferenceIdeal.Gen.bcast_S64_S1x64_1 (m ((c : Thread nD τ).loc main_arg2))) := by
  refine (biasrow1_of (W4 m ρ c)).trans ?_
  rw [arg2_at4]
  exact Cert.RowOfVector.shapeCast_eq_broadcastInDim (n := 64) (by decide) _ _ _
theorem v3_at5 : W5 m ρ c (Proc.devRef .tc main_v3) = (Cert.Spec.sources (F := Ideal) (m ((c : Thread nD τ).loc main_arg5))) := (stretch1_keeps_v3 (W4 m ρ c)).trans (v3_at4 m ρ c)
theorem v6_at5 : W5 m ρ c (Proc.devRef .tc main_v6) = (Cert.Spec.targets (F := Ideal) (m ((c : Thread nD τ).loc main_arg5))) := (stretch1_keeps_v6 (W4 m ρ c)).trans (v6_at4 m ρ c)
theorem v29_at5 : W5 m ρ c (Proc.devRef .tc main_v29) = (Cert.Spec.edgeCoeff (F := Ideal) (Cert.Spec.sources (F := Ideal) (m ((c : Thread nD τ).loc main_arg5))) (Cert.Spec.targets (F := Ideal) (m ((c : Thread nD τ).loc main_arg5)))) := (stretch1_keeps_v29 (W4 m ρ c)).trans (v29_at4 m ρ c)
theorem arg3_at5 : W5 m ρ c (Proc.devRef .tc main_arg3) = (m ((c : Thread nD τ).loc main_arg3)) := (stretch1_keeps_arg3 (W4 m ρ c)).trans (arg3_at4 m ρ c)
theorem arg4_at5 : W5 m ρ c (Proc.devRef .tc main_arg4) = (m ((c : Thread nD τ).loc main_arg4)) := (stretch1_keeps_arg4 (W4 m ρ c)).trans (arg4_at4 m ρ c)
theorem arg6_at5 : W5 m ρ c (Proc.devRef .tc main_arg6) = (m ((c : Thread nD τ).loc main_arg6)) := (stretch1_keeps_arg6 (W4 m ρ c)).trans (arg6_at4 m ρ c)

/-! ### Call 1: layer 1 -/

theorem layer1_at6 : W6 m ρ c (Proc.devRef .tc main_v45) = (Cert.Spec.layer1 (F := Ideal) (m ((c : Thread nD τ).loc main_arg0)) (m ((c : Thread nD τ).loc main_arg1)) (m ((c : Thread nD τ).loc main_arg2)) (m ((c : Thread nD τ).loc main_arg5))) := by
  refine (W6_arr m ρ c 2).trans ((Cert.KernelIdeal.Bias1.final (V5 m ρ) Cert.ReferenceIdeal.Gen.bcast_S1x64_S100000x64_0_1 Cert.ReferenceIdeal.Gen.bcast_S_S100000x64 c).trans ?_)
  show Cert.KernelIdeal.Bias1.whole Cert.ReferenceIdeal.Gen.bcast_S1x64_S100000x64_0_1 Cert.ReferenceIdeal.Gen.bcast_S_S100000x64 (W5 m ρ c (Proc.devRef .tc main_v43)) (W5 m ρ c (Proc.devRef .tc main_v44)) = _
  rw [aggregate1_at5, biasrow1_at5]
  unfold Cert.Spec.layer1
  rfl
theorem v3_at6 : W6 m ρ c (Proc.devRef .tc main_v3) = (Cert.Spec.sources (F := Ideal) (m ((c : Thread nD τ).loc main_arg5))) := (W6_of_ne m ρ c main_v3 (by decide)).trans (v3_at5 m ρ c)
theorem v6_at6 : W6 m ρ c (Proc.devRef .tc main_v6) = (Cert.Spec.targets (F := Ideal) (m ((c : Thread nD τ).loc main_arg5))) := (W6_of_ne m ρ c main_v6 (by decide)).trans (v6_at5 m ρ c)
theorem v29_at6 : W6 m ρ c (Proc.devRef .tc main_v29) = (Cert.Spec.edgeCoeff (F := Ideal) (Cert.Spec.sources (F := Ideal) (m ((c : Thread nD τ).loc main_arg5))) (Cert.Spec.targets (F := Ideal) (m ((c : Thread nD τ).loc main_arg5)))) := (W6_of_ne m ρ c main_v29 (by decide)).trans (v29_at5 m ρ c)
theorem arg3_at6 : W6 m ρ c (Proc.devRef .tc main_arg3) = (m ((c : Thread nD τ).loc main_arg3)) := (W6_of_ne m ρ c main_arg3 (by decide)).trans (arg3_at5 m ρ c)
theorem arg4_at6 : W6 m ρ c (Proc.devRef .tc main_arg4) = (m ((c : Thread nD τ).loc main_arg4)) := (W6_of_ne m ρ c main_arg4 (by decide)).trans (arg4_at5 m ρ c)
theorem arg6_at6 : W6 m ρ c (Proc.devRef .tc main_arg6) = (m ((c : Thread nD τ).loc main_arg6)) := (W6_of_ne m ρ c main_arg6 (by decide)).trans (arg6_at5 m ρ c)

/-! ### Call 2 and the aggregation after it -/

theorem product2_at7 : W7 m ρ c (Proc.devRef .tc main_v46) = (Cert.KernelIdeal.Product2.whole Cert.ReferenceIdeal.dot_S100000x64_S64x32_S100000x32_1_0_0_1_n_n (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3))) := by
  refine (W7_arr m ρ c 2).trans ((Cert.KernelIdeal.Product2.final (V6 m ρ) Cert.ReferenceIdeal.dot_S100000x64_S64x32_S100000x32_1_0_0_1_n_n rfl c).trans ?_)
  show Cert.KernelIdeal.Product2.whole Cert.ReferenceIdeal.dot_S100000x64_S64x32_S100000x32_1_0_0_1_n_n (W6 m ρ c (Proc.devRef .tc main_v45)) (W6 m ρ c (Proc.devRef .tc main_arg3)) = _
  rw [layer1_at6, arg3_at6]
theorem v3_at7 : W7 m ρ c (Proc.devRef .tc main_v3) = (Cert.Spec.sources (F := Ideal) (m ((c : Thread nD τ).loc main_arg5))) := (W7_of_ne m ρ c main_v3 (by decide)).trans (v3_at6 m ρ c)
theorem v6_at7 : W7 m ρ c (Proc.devRef .tc main_v6) = (Cert.Spec.targets (F := Ideal) (m ((c : Thread nD τ).loc main_arg5))) := (W7_of_ne m ρ c main_v6 (by decide)).trans (v6_at6 m ρ c)
theorem v29_at7 : W7 m ρ c (Proc.devRef .tc main_v29) = (Cert.Spec.edgeCoeff (F := Ideal) (Cert.Spec.sources (F := Ideal) (m ((c : Thread nD τ).loc main_arg5))) (Cert.Spec.targets (F := Ideal) (m ((c : Thread nD τ).loc main_arg5)))) := (W7_of_ne m ρ c main_v29 (by decide)).trans (v29_at6 m ρ c)
theorem arg4_at7 : W7 m ρ c (Proc.devRef .tc main_arg4) = (m ((c : Thread nD τ).loc main_arg4)) := (W7_of_ne m ρ c main_arg4 (by decide)).trans (arg4_at6 m ρ c)
theorem arg6_at7 : W7 m ρ c (Proc.devRef .tc main_arg6) = (m ((c : Thread nD τ).loc main_arg6)) := (W7_of_ne m ρ c main_arg6 (by decide)).trans (arg6_at6 m ρ c)

theorem aggregate2_at8 : W8 m ρ c (Proc.devRef .tc main_v59) = (Cert.Spec.aggregate32 (F := Ideal) (Cert.Spec.sources (F := Ideal) (m ((c : Thread nD τ).loc main_arg5))) (Cert.Spec.targets (F := Ideal) (m ((c : Thread nD τ).loc main_arg5))) (Cert.Spec.edgeCoeff (F := Ideal) (Cert.Spec.sources (F := Ideal) (m ((c : Thread nD τ).loc main_arg5))) (Cert.Spec.targets (F := Ideal) (m ((c : Thread nD τ).loc main_arg5)))) (Cert.KernelIdeal.Product2.whole Cert.ReferenceIdeal.dot_S100000x64_S64x32_S100000x32_1_0_0_1_n_n (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3)))) := by
  refine (aggregate2_of (W7 m ρ c)).trans ?_
  rw [v3_at7, v6_at7, v29_at7, product2_at7]
theorem biasrow2_at8 : W8 m ρ c (Proc.devRef .tc main_v60) = (broadcastInDim (s := Cert.ReferenceIdeal.S32) (α := Ideal .f32) Cert.ReferenceIdeal.S1x32 ![1] Cert.ReferenceIdeal.Gen.bcast_S32_S1x32_1 (m ((c : Thread nD τ).loc main_arg4))) := by
  refine (biasrow2_of (W7 m ρ c)).trans ?_
  rw [arg4_at7]
  exact Cert.RowOfVector.shapeCast_eq_broadcastInDim (n := 32) (by decide) _ _ _
theorem arg6_at8 : W8 m ρ c (Proc.devRef .tc main_arg6) = (m ((c : Thread nD τ).loc main_arg6)) := (stretch3_keeps_arg6 (W7 m ρ c)).trans (arg6_at7 m ρ c)

/-! ### Call 3: layer 2 -/

theorem layer2_at9 : W9 m ρ c (Proc.devRef .tc main_v61) = (Cert.Spec.layer2 (F := Ideal) (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3)) (m ((c : Thread nD τ).loc main_arg4)) (m ((c : Thread nD τ).loc main_arg5))) := by
  refine (W9_arr m ρ c 2).trans ((Cert.KernelIdeal.Bias3.final (V8 m ρ) Cert.ReferenceIdeal.Gen.bcast_S1x32_S100000x32_0_1 c).trans ?_)
  show Cert.KernelIdeal.Bias3.whole Cert.ReferenceIdeal.Gen.bcast_S1x32_S100000x32_0_1 (W8 m ρ c (Proc.devRef .tc main_v59)) (W8 m ρ c (Proc.devRef .tc main_v60)) = _
  rw [aggregate2_at8, biasrow2_at8]
  unfold Cert.Spec.layer2
  rfl
theorem arg6_at9 : W9 m ρ c (Proc.devRef .tc main_arg6) = (m ((c : Thread nD τ).loc main_arg6)) := (W9_of_ne m ρ c main_arg6 (by decide)).trans (arg6_at8 m ρ c)

/-! ### The gathers, call 4 and the result -/

theorem firstRows_at10 : W10 m ρ c (Proc.devRef .tc main_v70) = (Cert.Spec.rowsAt (F := Ideal) (Cert.Spec.layer2 (F := Ideal) (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3)) (m ((c : Thread nD τ).loc main_arg4)) (m ((c : Thread nD τ).loc main_arg5))) (Cert.Spec.firsts (F := Ideal) (m ((c : Thread nD τ).loc main_arg6)))) := by
  refine (firstRows_of (W9 m ρ c)).trans ?_
  rw [layer2_at9, arg6_at9]
theorem secondRows_at10 : W10 m ρ c (Proc.devRef .tc main_v79) = (Cert.Spec.rowsAt (F := Ideal) (Cert.Spec.layer2 (F := Ideal) (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3)) (m ((c : Thread nD τ).loc main_arg4)) (m ((c : Thread nD τ).loc main_arg5))) (Cert.Spec.seconds (F := Ideal) (m ((c : Thread nD τ).loc main_arg6)))) := by
  refine (secondRows_of (W9 m ρ c)).trans ?_
  rw [layer2_at9, arg6_at9]

theorem column_at11 : W11 m ρ c (Proc.devRef .tc main_v80) = Cert.KernelIdeal.Decode.column Cert.ReferenceIdeal.Gen.reducesTo_S200000x32_S200000_d1 Cert.ReferenceIdeal.Gen.h_S_ (Cert.Spec.rowsAt (F := Ideal) (Cert.Spec.layer2 (F := Ideal) (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3)) (m ((c : Thread nD τ).loc main_arg4)) (m ((c : Thread nD τ).loc main_arg5))) (Cert.Spec.firsts (F := Ideal) (m ((c : Thread nD τ).loc main_arg6)))) (Cert.Spec.rowsAt (F := Ideal) (Cert.Spec.layer2 (F := Ideal) (Cert.Spec.layer1 (F := Ideal) (m ((c : Thread nD τ).loc main_arg0)) (m ((c : Thread nD τ).loc main_arg1)) (m ((c : Thread nD τ).loc main_arg2)) (m ((c : Thread nD τ).loc main_arg5))) (m ((c : Thread nD τ).loc main_arg3)) (m ((c : Thread nD τ).loc main_arg4)) (m ((c : Thread nD τ).loc main_arg5))) (Cert.Spec.seconds (F := Ideal) (m ((c : Thread nD τ).loc main_arg6)))) := by
  refine (W11_arr m ρ c 2).trans ((Cert.KernelIdeal.Decode.final (V10 m ρ) Cert.ReferenceIdeal.Gen.reducesTo_S200000x32_S200000_d1 Cert.ReferenceIdeal.Gen.h_S_ c).trans ?_)
  show Cert.KernelIdeal.Decode.column Cert.ReferenceIdeal.Gen.reducesTo_S200000x32_S200000_d1 Cert.ReferenceIdeal.Gen.h_S_ (W10 m ρ c (Proc.devRef .tc main_v70)) (W10 m ρ c (Proc.devRef .tc main_v79)) = _
  rw [firstRows_at10, secondRows_at10]

/-- The result buffer ends at the network's function of the seven arguments. -/
theorem result : W12 m ρ c (Proc.devRef .tc main_v81)
    = Cert.Spec.score (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (result_of (W11 m ρ c)).trans ?_
  rw [column_at11, Cert.KernelIdeal.Decode.column_cast]
  unfold Cert.Spec.score Cert.Spec.scoresOf
  rfl

end Cert.KernelIdeal.Stages

end
-- ==== Proof.lean ====
/-
  A two-layer graph convolution with a dot-product link decoder, as five tiled calls among host operations, against
  its plain reference: the two compute the same function of the seven arguments over the extended reals.

  The network (`Cert.Spec.score`): add a self loop to every node; a node's weight is degree^(-1/2) (0 where the degree
  is 0) and an edge's coefficient the product of its ends' weights; one aggregation sends every node the
  coefficient-scaled rows of its in-neighbours, added up; layer 1 is relu (aggregate (x · W1) + b1), layer 2 is
  aggregate (z1 · W2) + b2; a labelled pair's score is the lane sum of the product of its two nodes' rows.

  The kernel program keeps the gathers, the scatter-adds and the degree arithmetic on the host, spelt exactly as the
  reference spells them, and moves five stages into calls that walk the rows block by block: the two dense products
  (2000 rows a block; the change of float format on the way into the product is the identity at the ideal values and the
  product into a zero accumulator is the host's dot product, both the sum over the contracted coordinate), the two bias
  stages (the bias reshaped to a row and copied down the block is the reference's bias broadcast along both axes), and
  the decoder (10000 pairs a block; the lane sums kept as a column and reshaped are the host's sum over axis 1 from
  zero). Each call's blocks tile its output, so its output array is the whole-array stage of the arrays it found
  (Product0, Bias1, Product2, Bias3, Decode); the walk through the program's boundaries (KernelValue) then puts the
  result buffer at `score` of the arguments, and the reference's composed term is `score` by unfolding the stage names
  (RefValue). No law that needs finiteness is used: both sides are the same sums of the same products.

  The claims: the three programs run to completion with their arguments unchanged (the kernel's two frames are the
  generated certificates; the reference's is its run with the result dropped); the idealization rewrote no operation,
  so there is nothing to preserve; and the two idealized programs, from memories agreeing on the arguments, end with
  the result at `score` of those arguments.
-/
import proofs.«110234_j1219770712387_1_alg».proof.Defs
import proofs.«110234_j1219770712387_1_alg».proof.Proof.Gen.Kernel
import proofs.«110234_j1219770712387_1_alg».proof.Proof.Gen.Kernel.Frame
import proofs.«110234_j1219770712387_1_alg».proof.Proof.Gen.KernelIdeal
import proofs.«110234_j1219770712387_1_alg».proof.Proof.Gen.KernelIdeal.Frame
import proofs.«110234_j1219770712387_1_alg».proof.Proof.Gen.ReferenceIdeal
import proofs.«110234_j1219770712387_1_alg».proof.Proof.Gen.Pre_finite_inputs
import proofs.«110234_j1219770712387_1_alg».proof.Proof.RefRun
import proofs.«110234_j1219770712387_1_alg».proof.Proof.RefValue
import proofs.«110234_j1219770712387_1_alg».proof.Proof.KernelRun
import proofs.«110234_j1219770712387_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the result at the network's function of the
    arguments. -/
theorem algebraic : Cert.algebraic_KernelIdeal_ReferenceIdeal := by
  intro m ρ m' ρ' _ hagree
  refine ⟨fun c => Cert.Spec.score (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stages.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq]
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
